-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x16x2048 : Shape := ⟨4, ![32, 16, 16, 2048]⟩
abbrev S2048x2048 : Shape := ⟨2, ![2048, 2048]⟩
abbrev S2048 : Shape := ⟨1, ![2048]⟩
abbrev S_ : Shape := ⟨0, ![]⟩

class Facts : Prop where
  bcast_S_S32x16x16x2048 : S_.BroadcastsInDim S32x16x16x2048 (![] : Fin 0 → Fin S32x16x16x2048.rank)
  reducesTo_S32x16x16x2048_S_d0_1_2_3 : S32x16x16x2048.ReducesTo [0, 1, 2, 3] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x2048 .f32) (main_arg8 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S2048 .f32) (main_arg6 : FVec F S2048 .f32) (main_arg7 : FVec F S2048x2048 .f32) (main_arg8 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S32x16x16x2048 .f32) (main_arg1 : FVec F S2048x2048 .f32) (main_arg2 : FVec F S2048 .f32) (main_arg3 : FVec F S2048x2048 .f32) (main_arg4 : FVec F S2048 .f32) (main_arg5 : FVec F S2048 .f32) (main_arg6 : FVec F S2048 .f32) (main_arg7 : FVec F S2048x2048 .f32) (main_arg8 : FVec F S2048 .f32) : IVec S_ 1 :=
  let main_v0 : FVec F S32x16x16x2048 .f32 := Host.absf main_arg0
  let main_cst : FVec F S_ .f32 := constant S_ .f32 0x7F800000#32
  let main_v1 : FVec F S32x16x16x2048 .f32 := broadcastInDim S32x16x16x2048 ![] bcast_S_S32x16x16x2048 main_cst
  let main_v2 : IVec S32x16x16x2048 1 := cmpf .olt main_v0 main_v1
  let main_c : IVec S_ 1 := constantI S_ 1 1#1
  let main_v3 : IVec S_ 1 := (fun x v => Host.reduce IntOp.andi x v reducesTo_S32x16x16x2048_S_d0_1_2_3 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_v13 main_v16
-- ==== Kernel.lean ====
abbrev S32x16x16x2048 : Shape := ⟨4, ![32, 16, 16, 2048]⟩
abbrev S2048x2048 : Shape := ⟨2, ![2048, 2048]⟩
abbrev S2048 : Shape := ⟨1, ![2048]⟩
abbrev S512x16x2048 : Shape := ⟨3, ![512, 16, 2048]⟩
abbrev S_ : Shape := ⟨0, ![]⟩
abbrev S512x2048 : Shape := ⟨2, ![512, 2048]⟩
abbrev S1x2048 : Shape := ⟨2, ![1, 2048]⟩
abbrev S16x16x2048 : Shape := ⟨3, ![16, 16, 2048]⟩
abbrev S16x2048 : Shape := ⟨2, ![16, 2048]⟩
abbrev S16x1x2048 : Shape := ⟨3, ![16, 1, 2048]⟩
abbrev S256x2048 : Shape := ⟨2, ![256, 2048]⟩
abbrev S1x1x2048 : Shape := ⟨3, ![1, 1, 2048]⟩

abbrev nBuf : Space → Nat
  | .hbm => 37
  | .vmem => 12
  | .smem => 0
  | _ => 0

abbrev bufTy : (tb : Table) → Fin (tcTables nBuf tb) → BufTy
  | .hbm, ⟨0, _⟩ => ⟨S32x16x16x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S512x16x2048, .f32⟩
  | .hbm, ⟨10, _⟩ => ⟨S_, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S2048x2048, .bf16⟩
  | .hbm, ⟨16, _⟩ => ⟨S512x2048, .bf16⟩
  | .hbm, ⟨17, _⟩ => ⟨S512x2048, .f32⟩
  | .hbm, ⟨18, _⟩ => ⟨S1x2048, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S2048x2048, .bf16⟩
  | .hbm, ⟨30, _⟩ => ⟨S2048x2048, .bf16⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S512x16x2048, .f32⟩
  | .hbm, ⟨36, _⟩ => ⟨S32x16x16x2048, .f32⟩
  | .local _ .vmem, ⟨0, _⟩ => ⟨S16x16x2048, .f32⟩
  | .local _ .vmem, ⟨1, _⟩ => ⟨S16x16x2048, .f32⟩
  | .local _ .vmem, ⟨2, _⟩ => ⟨S16x2048, .f32⟩
  | .local _ .vmem, ⟨3, _⟩ => ⟨S16x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S16x16x2048, .f32⟩
  | .local _ .vmem, ⟨11, _⟩ => ⟨S16x16x2048, .f32⟩
  | _, _ => ⟨S32x16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S32x16x16x2048_S512x16x2048 : S32x16x16x2048.ShapeCasts S512x16x2048
  reducesTo_S512x16x2048_S512x2048_d1 : S512x16x2048.ReducesTo [1] S512x2048
  h_S_ : 0 < S_.numel
  bcast_S_S512x2048 : S_.BroadcastsInDim S512x2048 (![] : Fin 0 → Fin S512x2048.rank)
  bitsLt_bf16_f32 : FTy.bits .bf16 < FTy.bits .f32
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  shapeCasts_S2048_S1x2048 : S2048.ShapeCasts S1x2048
  inb_S16x16x2048_S16x16x2048_0_0_0 : ∀ a, (![0, 0, 0] : Fin 3 → Nat) a + S16x16x2048.size a ≤ S16x16x2048.size a
  h_S16x16x2048 : 0 < S16x16x2048.numel
  shapeCasts_S16x16x2048_S16x16x2048 : S16x16x2048.ShapeCasts S16x16x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  shapeCasts_S16x2048_S16x1x2048 : S16x2048.ShapeCasts S16x1x2048
  broadcasts_S16x1x2048_S16x16x2048 : S16x1x2048.Broadcasts S16x16x2048
  shapeCasts_S16x16x2048_S256x2048 : S16x16x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S256x2048_S16x16x2048 : S256x2048.ShapeCasts S16x16x2048
  reduces_S16x16x2048_S16x2048 : S16x16x2048.Reduces [1] S16x2048
  shapeCasts_S1x2048_S1x1x2048 : S1x2048.ShapeCasts S1x1x2048
  broadcasts_S1x1x2048_S16x16x2048 : S1x1x2048.Broadcasts S16x16x2048
  shapeCasts_S512x16x2048_S32x16x16x2048 : S512x16x2048.ShapeCasts S32x16x16x2048
  dot_S512x2048_S2048x2048_S512x2048_1_1_0_0_n_n_wf : DotDims.WF S512x2048 S2048x2048 S512x2048 [1] [1] [0] [0] [] []
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x2048.size a ≤ S512x16x2048.size a
  hwx0_0 : ∀ i : grid0.Coords, EltTy.bits .f32 = 32 ∨ (Rect.block (s := S512x16x2048) S16x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S512x2048.size a
  hwx0_1 : ∀ i : grid0.Coords, EltTy.bits .f32 = 32 ∨ (Rect.block (s := S512x2048) S16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x16x2048.size a ≤ S512x16x2048.size a
  hwx0_8 : ∀ i : grid0.Coords, EltTy.bits .f32 = 32 ∨ (Rect.block (s := S512x16x2048) S16x16x2048.size (cc0_transform_8 i) (hinb0_8 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v0) S16x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S16x16x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x16x16x2048 : Shape := ⟨4, ![32, 16, 16, 2048]⟩
abbrev S2048x2048 : Shape := ⟨2, ![2048, 2048]⟩
abbrev S2048 : Shape := ⟨1, ![2048]⟩
abbrev S512x16x2048 : Shape := ⟨3, ![512, 16, 2048]⟩
abbrev S_ : Shape := ⟨0, ![]⟩
abbrev S512x2048 : Shape := ⟨2, ![512, 2048]⟩
abbrev S1x2048 : Shape := ⟨2, ![1, 2048]⟩
abbrev S512x1x2048 : Shape := ⟨3, ![512, 1, 2048]⟩
abbrev S1x1x2048 : Shape := ⟨3, ![1, 1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S32x16x16x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S512x16x2048, .f32⟩
  | .hbm, ⟨10, _⟩ => ⟨S_, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x1x2048, .f32⟩
  | .hbm, ⟨28, _⟩ => ⟨S512x16x2048, .f32⟩
  | .hbm, ⟨29, _⟩ => ⟨S512x16x2048, .f32⟩
  | .hbm, ⟨30, _⟩ => ⟨S512x16x2048, .f32⟩
  | .hbm, ⟨31, _⟩ => ⟨S1x1x2048, .f32⟩
  | .hbm, ⟨32, _⟩ => ⟨S512x16x2048, .f32⟩
  | .hbm, ⟨33, _⟩ => ⟨S512x16x2048, .f32⟩
  | .hbm, ⟨34, _⟩ => ⟨S_, .f32⟩
  | .hbm, ⟨35, _⟩ => ⟨S512x2048, .f32⟩
  | .hbm, ⟨36, _⟩ => ⟨S512x1x2048, .f32⟩
  | .hbm, ⟨37, _⟩ => ⟨S_, .f32⟩
  | .hbm, ⟨38, _⟩ => ⟨S512x1x2048, .f32⟩
  | .hbm, ⟨39, _⟩ => ⟨S512x1x2048, .f32⟩
  | .hbm, ⟨40, _⟩ => ⟨S512x16x2048, .f32⟩
  | .hbm, ⟨41, _⟩ => ⟨S512x16x2048, .f32⟩
  | .hbm, ⟨42, _⟩ => ⟨S512x16x2048, .f32⟩
  | .hbm, ⟨43, _⟩ => ⟨S_, .f32⟩
  | .hbm, ⟨44, _⟩ => ⟨S512x2048, .f32⟩
  | .hbm, ⟨45, _⟩ => ⟨S512x1x2048, .f32⟩
  | .hbm, ⟨46, _⟩ => ⟨S_, .f32⟩
  | .hbm, ⟨47, _⟩ => ⟨S512x1x2048, .f32⟩
  | .hbm, ⟨48, _⟩ => ⟨S512x1x2048, .f32⟩
  | .hbm, ⟨49, _⟩ => ⟨S512x16x2048, .f32⟩
  | .hbm, ⟨50, _⟩ => ⟨S512x16x2048, .f32⟩
  | .hbm, ⟨51, _⟩ => ⟨S_, .f32⟩
  | .hbm, ⟨52, _⟩ => ⟨S512x1x2048, .f32⟩
  | .hbm, ⟨53, _⟩ => ⟨S512x1x2048, .f32⟩
  | .hbm, ⟨54, _⟩ => ⟨S512x1x2048, .f32⟩
  | .hbm, ⟨55, _⟩ => ⟨S512x16x2048, .f32⟩
  | .hbm, ⟨56, _⟩ => ⟨S512x16x2048, .f32⟩
  | .hbm, ⟨57, _⟩ => ⟨S1x1x2048, .f32⟩
  | .hbm, ⟨58, _⟩ => ⟨S512x16x2048, .f32⟩
  | .hbm, ⟨59, _⟩ => ⟨S512x16x2048, .f32⟩
  | .hbm, ⟨60, _⟩ => ⟨S1x1x2048, .f32⟩
  | .hbm, ⟨61, _⟩ => ⟨S512x16x2048, .f32⟩
  | .hbm, ⟨62, _⟩ => ⟨S512x16x2048, .f32⟩
  | .hbm, ⟨63, _⟩ => ⟨S_, .f32⟩
  | .hbm, ⟨64, _⟩ => ⟨S512x16x2048, .f32⟩
  | .hbm, ⟨65, _⟩ => ⟨S512x16x2048, .f32⟩
  | .hbm, ⟨66, _⟩ => ⟨S512x16x2048, .f32⟩
  | .hbm, ⟨67, _⟩ => ⟨S1x1x2048, .f32⟩
  | .hbm, ⟨68, _⟩ => ⟨S512x16x2048, .f32⟩
  | .hbm, ⟨69, _⟩ => ⟨S512x16x2048, .f32⟩
  | .hbm, ⟨70, _⟩ => ⟨S32x16x16x2048, .f32⟩
  | _, _ => ⟨S32x16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  shapeCasts_S32x16x16x2048_S512x16x2048 : S32x16x16x2048.ShapeCasts S512x16x2048
  reducesTo_S512x16x2048_S512x2048_d1 : S512x16x2048.ReducesTo [1] S512x2048
  h_S_ : 0 < S_.numel
  bcast_S_S512x2048 : S_.BroadcastsInDim S512x2048 (![] : Fin 0 → Fin S512x2048.rank)
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  bcast_S512x2048_S512x1x2048_0_2 : S512x2048.BroadcastsInDim S512x1x2048 (![0, 2] : Fin 2 → Fin S512x1x2048.rank)
  bcast_S512x1x2048_S512x16x2048_0_1_2 : S512x1x2048.BroadcastsInDim S512x16x2048 (![0, 1, 2] : Fin 3 → Fin S512x16x2048.rank)
  bcast_S2048_S1x1x2048_2 : S2048.BroadcastsInDim S1x1x2048 (![2] : Fin 1 → Fin S1x1x2048.rank)
  bcast_S1x1x2048_S512x16x2048_0_1_2 : S1x1x2048.BroadcastsInDim S512x16x2048 (![0, 1, 2] : Fin 3 → Fin S512x16x2048.rank)
  bcast_S_S512x1x2048 : S_.BroadcastsInDim S512x1x2048 (![] : Fin 0 → Fin S512x1x2048.rank)
  bcast_S_S512x16x2048 : S_.BroadcastsInDim S512x16x2048 (![] : Fin 0 → Fin S512x16x2048.rank)
  shapeCasts_S512x16x2048_S32x16x16x2048 : S512x16x2048.ShapeCasts S32x16x16x2048
  dot_S512x2048_S2048x2048_S512x2048_1_1_0_0_n_n_wf : DotDims.WF S512x2048 S2048x2048 S512x2048 [1] [1] [0] [0] [] []
  dot_S512x16x2048_S2048x2048_S512x16x2048_2_1_01_0_n_n_wf : DotDims.WF S512x16x2048 S2048x2048 S512x16x2048 [2] [1] [0, 1] [0] [] []

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x16x2048_S2048x2048_S512x16x2048_2_1_01_0_n_n : DotDims S512x16x2048 S2048x2048 S512x16x2048 where
  lhsContracting := [2]
  rhsContracting := [1]
  lhsNonContracting := [0, 1]
  rhsNonContracting := [0]
  lhsBatch := []
  rhsBatch := []
  wf := dot_S512x16x2048_S2048x2048_S512x16x2048_2_1_01_0_n_n_wf

class Facts : Prop extends Facts₀ where

variable [Facts]
-- ==== Proof.FrameMap.lean ====
/-
  The map applied to one frame. A frame is 16 parts of 2048 channels, `x p k`, with a gate `a k` per channel.
  The gated frame `x p k * a k` goes through an affine map `y ↦ (∑ k, y k * W d k) + b d` on the channels, is
  normalised over the 16 parts channel by channel (mean and biased variance, each a sum over the parts divided by
  sixteen; then `(h - mean) * rsqrt (var + eps) * gamma + beta`), clipped below at zero, and goes through a second
  affine map. Everything is on the extended reals; the constants are kept as the words the programs spell, so that
  no word is ever evaluated: both programs spell the same ones.
-/
import Idealize.ShloMosaic.PureOps.Ideal

noncomputable section

open scoped BigOperators

namespace Cert.Gcn

open Idealize.ShloMosaic

/-- The word of `0.0`, of `16.0` and of the variance's offset, read as extended reals. -/
abbrev zeroW : EReal := Ideal.ofBits .f32 0x00000000#32
abbrev sixteenW : EReal := Ideal.ofBits .f32 0x41800000#32
abbrev epsW : EReal := Ideal.ofBits .f32 0x3727C5AC#32

/-- The affine map on the channels: `(∑ k, y k * W d k) + b d` (the weight is contracted along its second axis). -/
def affine (y : Fin 2048 → EReal) (W : Fin 2048 → Fin 2048 → EReal) (b : Fin 2048 → EReal) (d : Fin 2048) : EReal :=
  (∑ k : Fin 2048, y k * W d k) + b d

/-- The mean over the 16 parts: their sum divided by sixteen. -/
def mean16 (h : Fin 16 → EReal) : EReal := Ideal.div (∑ q : Fin 16, h q) sixteenW

/-- One channel of one part, normalised over the parts, scaled, shifted and clipped below at zero. -/
def normRelu (h : Fin 16 → Fin 2048 → EReal) (gamma beta : Fin 2048 → EReal) (p : Fin 16) (c : Fin 2048) : EReal :=
  max ((((h p c - mean16 fun q => h q c)
        * Ideal.rsqrt ((mean16 fun q => (h q c - mean16 fun q' => h q' c) * (h q c - mean16 fun q' => h q' c)) + epsW))
      * gamma c) + beta c) zeroW

/-- The whole map on one frame, at part `p` and output channel `d`. -/
def frameOut (x : Fin 16 → Fin 2048 → EReal) (a : Fin 2048 → EReal) (W1 : Fin 2048 → Fin 2048 → EReal)
    (b1 gamma beta : Fin 2048 → EReal) (W2 : Fin 2048 → Fin 2048 → EReal) (b2 : Fin 2048 → EReal)
    (p : Fin 16) (d : Fin 2048) : EReal :=
  affine (fun c => normRelu (fun q c' => affine (fun k => x q k * a k) W1 b1 c') gamma beta p c) W2 b2 d

end Cert.Gcn

end
-- ==== Proof.RefStages.lean ====
/-
  The reference's stages read at coordinates. At frame `n`, part `p` and output channel `d`, its last stage
  before the final reshape is the frame map (FrameMap.lean) applied to frame `n`: the frame's 16 parts of the
  reshaped input, its row of the gate array (the stage `val_main_v13`, carried as it is and never opened), and the
  weights, biases, scale and shift as given.
-/
import proofs.«168423_j91130616087328_2_alg».proof.Proof.Gen.ReferenceIdeal.Read
import proofs.«168423_j91130616087328_2_alg».proof.Proof.FrameMap
import Idealize.ShloMosaic.Lib.ValueIdx
import Idealize.ShloMosaic.PureOps.Ideal.Laws

noncomputable section

open scoped BigOperators

namespace Cert.Gcn.Ref

open Idealize.ShloMosaic Idealize.ShloMosaic.ValueIdx Cert.ReferenceIdeal Cert.ReferenceIdeal.Read Cert.Gcn

variable (x0 : (⟨S32x16x16x2048, .f32⟩ : BufTy).Contents (Elt Ideal))
  (x1 : (⟨S2048x2048, .f32⟩ : BufTy).Contents (Elt Ideal)) (x2 : (⟨S2048, .f32⟩ : BufTy).Contents (Elt Ideal))
  (x3 : (⟨S2048x2048, .f32⟩ : BufTy).Contents (Elt Ideal)) (x4 x5 x6 : (⟨S2048, .f32⟩ : BufTy).Contents (Elt Ideal))
  (x7 : (⟨S2048x2048, .f32⟩ : BufTy).Contents (Elt Ideal)) (x8 : (⟨S2048, .f32⟩ : BufTy).Contents (Elt Ideal))

/-- The gated frame: the input times the frame's gate, the same gate at every part. -/
theorem gated_apply (n : Fin 512) (q : Fin 16) (k : Fin 2048) :
    val_main_v16 (F := Ideal) x0 x1 x2 (ix3 n q k)
      = val_main_v0 (F := Ideal) x0 (ix3 n q k) * val_main_v13 (F := Ideal) x0 x1 x2 (ix2 n k) := by
  rw [val_main_v16_apply, val_main_v15_apply, val_main_v14_apply]
  have e : idx_main_v14 (idx_main_v15 (ix3 n q k)) = ix2 n k := by
    funext ax; match ax with | ⟨0, _⟩ => rfl | ⟨1, _⟩ => rfl
  rw [e]; rfl

/-- The hidden layer: the first affine map of the gated frame. -/
theorem hidden_apply (n : Fin 512) (q : Fin 16) (c : Fin 2048) :
    val_main_v20 (F := Ideal) x0 x1 x2 x3 x4 (ix3 n q c)
      = affine (fun k => val_main_v0 (F := Ideal) x0 (ix3 n q k) * val_main_v13 (F := Ideal) x0 x1 x2 (ix2 n k))
          (fun c' k => x3 (ix2 c' k)) (fun c' => x4 (ix1 c')) c := by
  rw [val_main_v20_apply, val_main_v17_apply, val_main_v19_apply, val_main_v18_apply]
  have el : ∀ k, lidx_main_v17 (ix3 n q c) k = ix3 n q k := fun k => by
    funext ax; match ax with | ⟨0, _⟩ => rfl | ⟨1, _⟩ => rfl | ⟨2, _⟩ => rfl
  have er : ∀ k, ridx_main_v17 (ix3 n q c) k = ix2 c k := fun k => by
    funext ax; match ax with | ⟨0, _⟩ => rfl | ⟨1, _⟩ => rfl
  have eb : idx_main_v18 (idx_main_v19 (ix3 n q c)) = ix1 c := by
    funext ax; match ax with | ⟨0, _⟩ => rfl
  simp only [el, er, eb, gated_apply]
  rfl

/-- The mean of the hidden layer over the parts. -/
theorem mean_apply (n : Fin 512) (c : Fin 2048) :
    val_main_v24 (F := Ideal) x0 x1 x2 x3 x4 (ix3 n (0 : Fin 1) c)
      = mean16 (fun q => val_main_v20 (F := Ideal) x0 x1 x2 x3 x4 (ix3 n q c)) := by
  rw [val_main_v24_apply, val_main_v22_apply, val_main_v21_apply, val_main_v23_apply]
  have e1 : idx_main_v22 (ix3 n (0 : Fin 1) c) = ix2 n c := by
    funext ax; match ax with | ⟨0, _⟩ => rfl | ⟨1, _⟩ => rfl
  have e2 : ∀ q, idx_main_v21 (ix2 n c) q = ix3 n q c := fun q => by
    funext ax; match ax with | ⟨0, _⟩ => rfl | ⟨1, _⟩ => rfl | ⟨2, _⟩ => rfl
  rw [e1]; simp only [e2]
  show Ideal.div (Ideal.ofBits .f32 0x00000000#32 + ∑ q : Fin 16, val_main_v20 (F := Ideal) x0 x1 x2 x3 x4 (ix3 n q c))
      (Ideal.ofBits .f32 0x41800000#32) = _
  rw [Ideal.ofBits_zero_f32, zero_add]
  rfl

/-- The biased variance of the hidden layer over the parts. -/
theorem var_apply (n : Fin 512) (c : Fin 2048) :
    val_main_v31 (F := Ideal) x0 x1 x2 x3 x4 (ix3 n (0 : Fin 1) c)
      = mean16 (fun q =>
          (val_main_v20 (F := Ideal) x0 x1 x2 x3 x4 (ix3 n q c) - val_main_v24 (F := Ideal) x0 x1 x2 x3 x4 (ix3 n (0 : Fin 1) c))
          * (val_main_v20 (F := Ideal) x0 x1 x2 x3 x4 (ix3 n q c) - val_main_v24 (F := Ideal) x0 x1 x2 x3 x4 (ix3 n (0 : Fin 1) c))) := by
  rw [val_main_v31_apply, val_main_v29_apply, val_main_v28_apply, val_main_v30_apply]
  have e1 : idx_main_v29 (ix3 n (0 : Fin 1) c) = ix2 n c := by
    funext ax; match ax with | ⟨0, _⟩ => rfl | ⟨1, _⟩ => rfl
  have e2 : ∀ q, idx_main_v28 (ix2 n c) q = ix3 n q c := fun q => by
    funext ax; match ax with | ⟨0, _⟩ => rfl | ⟨1, _⟩ => rfl | ⟨2, _⟩ => rfl
  have e3 : ∀ q, idx_main_v25 (ix3 n q c) = ix3 n (0 : Fin 1) c := fun q => by
    funext ax; match ax with | ⟨0, _⟩ => rfl | ⟨1, _⟩ => rfl | ⟨2, _⟩ => rfl
  rw [e1]; simp only [e2, val_main_v27_apply, val_main_v26_apply, val_main_v25_apply, e3]
  show Ideal.div (Ideal.ofBits .f32 0x00000000#32 + ∑ q : Fin 16, _) (Ideal.ofBits .f32 0x41800000#32) = _
  rw [Ideal.ofBits_zero_f32, zero_add]
  rfl

/-- The hidden layer normalised over the parts, scaled, shifted and clipped below at zero. -/
theorem norm_apply (n : Fin 512) (p : Fin 16) (c : Fin 2048) :
    val_main_v45 (F := Ideal) x0 x1 x2 x3 x4 x5 x6 (ix3 n p c)
      = normRelu (fun q c' => val_main_v20 (F := Ideal) x0 x1 x2 x3 x4 (ix3 n q c'))
          (fun c' => x5 (ix1 c')) (fun c' => x6 (ix1 c')) p c := by
  rw [val_main_v45_apply, val_main_v44_apply, val_main_v41_apply, val_main_v38_apply, val_main_v33_apply,
    val_main_v32_apply, val_main_v37_apply, val_main_v36_apply, val_main_v35_apply, val_main_v34_apply,
    val_main_v40_apply, val_main_v39_apply, val_main_v43_apply, val_main_v42_apply, val_main_call0_v0_apply]
  have e1 : idx_main_v32 (ix3 n p c) = ix3 n (0 : Fin 1) c := by
    funext ax; match ax with | ⟨0, _⟩ => rfl | ⟨1, _⟩ => rfl | ⟨2, _⟩ => rfl
  have e2 : idx_main_v37 (ix3 n p c) = ix3 n (0 : Fin 1) c := by
    funext ax; match ax with | ⟨0, _⟩ => rfl | ⟨1, _⟩ => rfl | ⟨2, _⟩ => rfl
  have e3 : idx_main_v39 (idx_main_v40 (ix3 n p c)) = ix1 c := by
    funext ax; match ax with | ⟨0, _⟩ => rfl
  have e4 : idx_main_v42 (idx_main_v43 (ix3 n p c)) = ix1 c := by
    funext ax; match ax with | ⟨0, _⟩ => rfl
  rw [e1, e2, e3, e4, var_apply, mean_apply]
  rfl

/-- The output layer: the second affine map of the normalised, clipped hidden layer. -/
theorem out_apply (n : Fin 512) (p : Fin 16) (d : Fin 2048) :
    val_main_v49 (F := Ideal) x0 x1 x2 x3 x4 x5 x6 x7 x8 (ix3 n p d)
      = affine (fun c => val_main_v45 (F := Ideal) x0 x1 x2 x3 x4 x5 x6 (ix3 n p c))
          (fun d' c => x7 (ix2 d' c)) (fun d' => x8 (ix1 d')) d := by
  rw [val_main_v49_apply, val_main_v46_apply, val_main_v48_apply, val_main_v47_apply]
  have el : ∀ k, lidx_main_v46 (ix3 n p d) k = ix3 n p k := fun k => by
    funext ax; match ax with | ⟨0, _⟩ => rfl | ⟨1, _⟩ => rfl | ⟨2, _⟩ => rfl
  have er : ∀ k, ridx_main_v46 (ix3 n p d) k = ix2 d k := fun k => by
    funext ax; match ax with | ⟨0, _⟩ => rfl | ⟨1, _⟩ => rfl
  have eb : idx_main_v47 (idx_main_v48 (ix3 n p d)) = ix1 d := by
    funext ax; match ax with | ⟨0, _⟩ => rfl
  simp only [el, er, eb]
  rfl

/-- THE REFERENCE'S LAST STAGE before its final reshape, at frame `n`, part `p`, output channel `d`, is the frame map
    of frame `n`. -/
theorem frame_apply (n : Fin 512) (p : Fin 16) (d : Fin 2048) :
    val_main_v49 (F := Ideal) x0 x1 x2 x3 x4 x5 x6 x7 x8 (ix3 n p d)
      = frameOut (fun q k => val_main_v0 (F := Ideal) x0 (ix3 n q k)) (fun k => val_main_v13 (F := Ideal) x0 x1 x2 (ix2 n k))
          (fun c k => x3 (ix2 c k)) (fun c => x4 (ix1 c)) (fun c => x5 (ix1 c)) (fun c => x6 (ix1 c))
          (fun c k => x7 (ix2 c k)) (fun c => x8 (ix1 c)) p d := by
  rw [out_apply]
  unfold frameOut
  simp only [norm_apply, hidden_apply]

end Cert.Gcn.Ref

end
-- ==== Proof.WholeArray.lean ====
/-
  The output before the final reshape, as ONE function of the nine arguments: at frame `n`, part `p` and output
  channel `d` it is the frame map of frame `n` — of the reshaped input's frame, the gate array's row, and the weights,
  biases, scale and shift. The reference's last stage before its reshape is this function.
-/
import proofs.«168423_j91130616087328_2_alg».proof.Proof.RefStages

noncomputable section

namespace Cert.Gcn

open Idealize.ShloMosaic Idealize.ShloMosaic.ValueIdx Cert.ReferenceIdeal Cert.ReferenceIdeal.Read

/-- The frames' outputs, index by index. -/
def outArr (x0 : (⟨S32x16x16x2048, .f32⟩ : BufTy).Contents (Elt Ideal))
    (x1 : (⟨S2048x2048, .f32⟩ : BufTy).Contents (Elt Ideal)) (x2 : (⟨S2048, .f32⟩ : BufTy).Contents (Elt Ideal))
    (x3 : (⟨S2048x2048, .f32⟩ : BufTy).Contents (Elt Ideal)) (x4 x5 x6 : (⟨S2048, .f32⟩ : BufTy).Contents (Elt Ideal))
    (x7 : (⟨S2048x2048, .f32⟩ : BufTy).Contents (Elt Ideal)) (x8 : (⟨S2048, .f32⟩ : BufTy).Contents (Elt Ideal))
    (n : Fin 512) (p : Fin 16) (d : Fin 2048) : EReal :=
  frameOut (fun q k => val_main_v0 (F := Ideal) x0 (ix3 n q k)) (fun k => val_main_v13 (F := Ideal) x0 x1 x2 (ix2 n k))
    (fun c k => x3 (ix2 c k)) (fun c => x4 (ix1 c)) (fun c => x5 (ix1 c)) (fun c => x6 (ix1 c))
    (fun c k => x7 (ix2 c k)) (fun c => x8 (ix1 c)) p d

/-- The same as an array over `[512, 16, 2048]`. -/
def outArray (x0 : (⟨S32x16x16x2048, .f32⟩ : BufTy).Contents (Elt Ideal))
    (x1 : (⟨S2048x2048, .f32⟩ : BufTy).Contents (Elt Ideal)) (x2 : (⟨S2048, .f32⟩ : BufTy).Contents (Elt Ideal))
    (x3 : (⟨S2048x2048, .f32⟩ : BufTy).Contents (Elt Ideal)) (x4 x5 x6 : (⟨S2048, .f32⟩ : BufTy).Contents (Elt Ideal))
    (x7 : (⟨S2048x2048, .f32⟩ : BufTy).Contents (Elt Ideal)) (x8 : (⟨S2048, .f32⟩ : BufTy).Contents (Elt Ideal)) :
    S512x16x2048.Idx → EReal :=
  fun i => outArr x0 x1 x2 x3 x4 x5 x6 x7 x8 (i 0) (i 1) (i 2)

theorem outArray_apply (x0 : (⟨S32x16x16x2048, .f32⟩ : BufTy).Contents (Elt Ideal))
    (x1 : (⟨S2048x2048, .f32⟩ : BufTy).Contents (Elt Ideal)) (x2 : (⟨S2048, .f32⟩ : BufTy).Contents (Elt Ideal))
    (x3 : (⟨S2048x2048, .f32⟩ : BufTy).Contents (Elt Ideal)) (x4 x5 x6 : (⟨S2048, .f32⟩ : BufTy).Contents (Elt Ideal))
    (x7 : (⟨S2048x2048, .f32⟩ : BufTy).Contents (Elt Ideal)) (x8 : (⟨S2048, .f32⟩ : BufTy).Contents (Elt Ideal))
    (n : Fin 512) (p : Fin 16) (d : Fin 2048) :
    outArray x0 x1 x2 x3 x4 x5 x6 x7 x8 (ix3 n p d) = outArr x0 x1 x2 x3 x4 x5 x6 x7 x8 n p d := rfl

/-- The reference's last stage before its final reshape is that array. -/
theorem ref_eq (x0 : (⟨S32x16x16x2048, .f32⟩ : BufTy).Contents (Elt Ideal))
    (x1 : (⟨S2048x2048, .f32⟩ : BufTy).Contents (Elt Ideal)) (x2 : (⟨S2048, .f32⟩ : BufTy).Contents (Elt Ideal))
    (x3 : (⟨S2048x2048, .f32⟩ : BufTy).Contents (Elt Ideal)) (x4 x5 x6 : (⟨S2048, .f32⟩ : BufTy).Contents (Elt Ideal))
    (x7 : (⟨S2048x2048, .f32⟩ : BufTy).Contents (Elt Ideal)) (x8 : (⟨S2048, .f32⟩ : BufTy).Contents (Elt Ideal)) :
    val_main_v49 (F := Ideal) x0 x1 x2 x3 x4 x5 x6 x7 x8 = outArray x0 x1 x2 x3 x4 x5 x6 x7 x8 := by
  funext i
  obtain ⟨n, p, d, rfl⟩ : ∃ (n : Fin 512) (p : Fin 16) (d : Fin 2048), i = ix3 n p d := ⟨i 0, i 1, i 2, eq_ix3 i⟩
  rw [outArray_apply]
  exact Ref.frame_apply x0 x1 x2 x3 x4 x5 x6 x7 x8 n p d

end Cert.Gcn

end
-- ==== Proof.BlockOps.lean ====
/-
  The kernel body's layout operations, its sum over the parts and its product, each read at an index given by
  coordinates. A block holds 16 frames of 16 parts of 2048 channels; for the two products it is laid out as 256 rows,
  row `16 a + q` being part `q` of frame `a`.
-/
import proofs.«168423_j91130616087328_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Block

open Idealize.ShloMosaic Idealize.ShloMosaic.ValueIdx Cert.KernelIdeal

/-- Part `q` of frame `a` as a row of the 256-row layout. -/
abbrev row (a q : Fin 16) : Fin 256 := ⟨16 * a.val + q.val, by omega⟩

section Layout
variable {α : Type}

/-- The block laid out as 256 rows reads row `16 a + q` at part `q` of frame `a`. -/
theorem flat_apply (v : S16x16x2048.Idx → α) (h : S16x16x2048.ShapeCasts S256x2048) (a q : Fin 16) (k : Fin 2048) :
    shapeCast S256x2048 v h (ix2 (row a q) k) = v (ix3 a q k) :=
  shapeCast_apply v h (ix2 (row a q) k) (ix3 a q k) (by
    rw [Shape.rowMajor_val_three, Shape.rowMajor_val_two]
    show (a.val * 16 + q.val) * 2048 + k.val = (16 * a.val + q.val) * 2048 + k.val
    omega)

/-- And 256 rows read back as a block. -/
theorem unflat_apply (v : S256x2048.Idx → α) (h : S256x2048.ShapeCasts S16x16x2048) (a q : Fin 16) (k : Fin 2048) :
    shapeCast S16x16x2048 v h (ix3 a q k) = v (ix2 (row a q) k) :=
  shapeCast_apply v h (ix3 a q k) (ix2 (row a q) k) (by
    rw [Shape.rowMajor_val_three, Shape.rowMajor_val_two]
    show (16 * a.val + q.val) * 2048 + k.val = (a.val * 16 + q.val) * 2048 + k.val
    omega)

/-- One value per frame and channel, given a parts axis of extent one. -/
theorem col_apply (v : S16x2048.Idx → α) (h : S16x2048.ShapeCasts S16x1x2048) (a : Fin 16) (k : Fin 2048) :
    shapeCast S16x1x2048 v h (ix3 a (0 : Fin 1) k) = v (ix2 a k) :=
  shapeCast_apply v h (ix3 a (0 : Fin 1) k) (ix2 a k) (by
    rw [Shape.rowMajor_val_three, Shape.rowMajor_val_two]
    show a.val * 2048 + k.val = (a.val * 1 + 0) * 2048 + k.val
    omega)

/-- Spread over the 16 parts, it reads the same value at every part. -/
theorem overParts_apply (v : S16x1x2048.Idx → α) (h : S16x1x2048.Broadcasts S16x16x2048) (a q : Fin 16) (k : Fin 2048) :
    broadcastTo S16x16x2048 v h (ix3 a q k) = v (ix3 a (0 : Fin 1) k) :=
  broadcastTo_apply v h (ix3 a q k) (ix3 a (0 : Fin 1) k) fun ax => by
    match ax with
    | ⟨0, _⟩ => rfl
    | ⟨1, _⟩ => rfl
    | ⟨2, _⟩ => rfl

/-- A row of channels spread over the 256 rows. -/
theorem overRows_apply (v : S1x2048.Idx → α) (h : S1x2048.Broadcasts S256x2048) (r : Fin 256) (k : Fin 2048) :
    broadcastTo S256x2048 v h (ix2 r k) = v (ix2 (0 : Fin 1) k) :=
  broadcastTo_1b_ab_apply v h r k

/-- A row of channels given two leading axes of extent one … -/
theorem row11_apply (v : S1x2048.Idx → α) (h : S1x2048.ShapeCasts S1x1x2048) (k : Fin 2048) :
    shapeCast S1x1x2048 v h (ix3 (0 : Fin 1) (0 : Fin 1) k) = v (ix2 (0 : Fin 1) k) :=
  shapeCast_apply v h (ix3 (0 : Fin 1) (0 : Fin 1) k) (ix2 (0 : Fin 1) k) (by
    rw [Shape.rowMajor_val_three, Shape.rowMajor_val_two]
    show 0 * 2048 + k.val = (0 * 1 + 0) * 2048 + k.val
    omega)

/-- … and spread over frames and parts. -/
theorem overBlock_apply (v : S1x1x2048.Idx → α) (h : S1x1x2048.Broadcasts S16x16x2048) (a q : Fin 16) (k : Fin 2048) :
    broadcastTo S16x16x2048 v h (ix3 a q k) = v (ix3 (0 : Fin 1) (0 : Fin 1) k) :=
  broadcastTo_apply v h (ix3 a q k) (ix3 (0 : Fin 1) (0 : Fin 1) k) fun ax => by
    match ax with
    | ⟨0, _⟩ => rfl
    | ⟨1, _⟩ => rfl
    | ⟨2, _⟩ => rfl

end Layout

/-- The sum over the 16 parts, per frame and channel, as a function of the block. -/
def sumOverParts (v : FVec Ideal S16x16x2048 .f32) : FVec Ideal S16x2048 .f32 :=
  fun j => ∑ q : Fin 16, v (ix3 (j 0) q (j 1))
theorem sumOverParts_apply (v : FVec Ideal S16x16x2048 .f32) (a : Fin 16) (k : Fin 2048) :
    sumOverParts v (ix2 a k) = ∑ q : Fin 16, v (ix3 a q k) := rfl

/-- The body's sum over the parts of a block, at frame `a` and channel `k`. -/
theorem sumParts_apply (v : FVec Ideal S16x16x2048 .f32) (acc : BitVec (FTy.bits .f32)) (h : S16x16x2048.Reduces [1] S16x2048)
    (hφ : FKind.Formats .f32) (hacc : acc = FKind.add.neutral .f32 hφ) (a : Fin 16) (k : Fin 2048) :
    multiReduction .add [1] S16x2048 v acc h hφ hacc (ix2 a k) = ∑ q : Fin 16, v (ix3 a q k) := by
  refine (Ideal.multiReduction_add_single v acc h hφ hacc (ix2 a k)).trans ?_
  refine Finset.sum_congr rfl fun q _ => congrArg v (funext fun ax => Fin.ext ?_)
  match ax with
  | ⟨0, _⟩ => rfl
  | ⟨1, _⟩ => rfl
  | ⟨2, _⟩ => rfl

/-- The same as an equation between arrays, for the body's accumulator word (the hypothesis is typed as the body's
    own proof of it is: the zero word is the sum's neutral element). -/
theorem sumParts_fun (v : FVec Ideal S16x16x2048 .f32) (h : S16x16x2048.Reduces [1] S16x2048)
    (hφ : FKind.Formats .f32) (hacc : (0x00000000#32 : BitVec 32) = 0x00000000#32) :
    multiReduction .add [1] S16x2048 v 0x00000000#32 h hφ hacc = sumOverParts v := by
  funext j
  obtain ⟨a, k, rfl⟩ : ∃ (a : Fin 16) (k : Fin 2048), j = ix2 a k := ⟨j 0, j 1, eq_ix2 j⟩
  exact sumParts_apply v _ h hφ hacc a k

theorem lhsT_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide),
    dif_pos (show (0 : Fin S256x2048.rank) ∈ dot_S256x2048_S2048x2048_S256x2048_1_1_0_0_n_n.lhsNonContracting by decide)]
  rfl
theorem rhsT_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide),
    dif_pos (show (0 : Fin S2048x2048.rank) ∈ dot_S256x2048_S2048x2048_S256x2048_1_1_0_0_n_n.rhsNonContracting by decide)]
  rfl

/-- The product of 256 rows with a weight contracted along the weight's second axis, accumulated from zero, at row
    `r` and output channel `d`: the plain sum over the input channels. -/
theorem rowsTimes_apply (l : FVec Ideal S256x2048 .bf16) (w : FVec Ideal S2048x2048 .bf16) (r : Fin 256) (d : Fin 2048) :
    matmul dot_S256x2048_S2048x2048_S256x2048_1_1_0_0_n_n none l w (constant S256x2048 .f32 0x00000000#32) (ix2 r d)
      = ∑ k : Fin 2048, l (ix2 r k) * w (ix2 d k) := by
  simp only [matmul]
  rw [Ideal.matmul_constant_zero_apply,
    ← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 r d)
      ((contrEquiv1 dot_S256x2048_S2048x2048_S256x2048_1_1_0_0_n_n 2048 rfl rfl).symm k) = ix2 r k :=
    funext fun ax => Fin.ext (by
      match ax with
      | ⟨0, _⟩ => exact lhsT_0 _ _
      | ⟨1, _⟩ => exact (dot_S256x2048_S2048x2048_S256x2048_1_1_0_0_n_n.lhsIdx_val_of_single rfl _ _).trans hk)
  have er : dot_S256x2048_S2048x2048_S256x2048_1_1_0_0_n_n.rhsIdx (ix2 r d)
      ((contrEquiv1 dot_S256x2048_S2048x2048_S256x2048_1_1_0_0_n_n 2048 rfl rfl).symm k) = ix2 d k :=
    funext fun ax => Fin.ext (by
      match ax with
      | ⟨0, _⟩ => exact rhsT_0 _ _
      | ⟨1, _⟩ => exact (dot_S256x2048_S2048x2048_S256x2048_1_1_0_0_n_n.rhsIdx_val_of_single rfl _ _).trans hk)
  rw [el, er]

end Cert.Gcn.Block

end
-- ==== Proof.BlockPayload.lean ====
/-
  What the kernel body stores, read at frame `a`, part `p` and output channel `d` of its block: the frame map
  (FrameMap.lean) applied to frame `a` of the loaded blocks — the frame's 16 parts of the first block, its row of
  gates of the second, and the weights, biases, scale and shift as loaded.
-/
import proofs.«168423_j91130616087328_2_alg».proof.Proof.Gen.KernelIdeal.Skeleton
import proofs.«168423_j91130616087328_2_alg».proof.Proof.BlockOps
import proofs.«168423_j91130616087328_2_alg».proof.Proof.FrameMap

noncomputable section

open scoped BigOperators

namespace Cert.Gcn.Block

open Idealize.ShloMosaic Idealize.ShloMosaic.ValueIdx Cert.KernelIdeal Cert.KernelIdeal.Gen Cert.Gcn

/-- The reciprocal square root at an index is that of the element. -/
theorem rsqrt_apply {s : Shape} {φ : FTy} (v : FVec Ideal s φ) (i : s.Idx) : rsqrt v i = Ideal.rsqrt (v i) := rfl

theorem payload_apply (x0 : FVec Ideal S16x16x2048 .f32) (x1 : FVec Ideal S16x2048 .f32)
    (x2 : FVec Ideal S2048x2048 .bf16) (x3 x4 x5 : FVec Ideal S1x2048 .f32) (x6 : FVec Ideal S2048x2048 .bf16)
    (x7 : FVec Ideal S1x2048 .f32) (a p : Fin 16) (d : Fin 2048) :
    k0_pay1 (F := Ideal) (k0_pay2 (F := Ideal) x0 x1 x2 x3 x4) x5 x6 x7 (ix3 a p d)
      = frameOut (fun q k => x0 (ix3 a q k)) (fun k => x1 (ix2 a k)) (fun c k => x2 (ix2 c k))
          (fun c => x3 (ix2 (0 : Fin 1) c)) (fun c => x4 (ix2 (0 : Fin 1) c)) (fun c => x5 (ix2 (0 : Fin 1) c))
          (fun c k => x6 (ix2 c k)) (fun c => x7 (ix2 (0 : Fin 1) c)) p d := by
  unfold k0_pay1 k0_pay2 frameOut affine normRelu mean16
  -- the payload's intermediate values substituted, so that each sum over the parts is a closed term
  dsimp only
  rw [sumParts_fun, sumParts_fun]
  simp only [unflat_apply, flat_apply, col_apply, overParts_apply, overRows_apply, row11_apply, overBlock_apply,
    sumOverParts_apply, rowsTimes_apply, mulf_apply, addf_apply, subf_apply, divf_apply, maximumf_apply, truncf_apply,
    rsqrt_apply, broadcast_apply, shapeCast_self]
  rfl

end Cert.Gcn.Block

end
-- ==== Proof.HostSide.lean ====
/-
  What the region finds in each window's array: the host operations before it, applied to the arguments.
  The input is the reshaped argument; the gate is the host's sigmoid of the mean frame's affine image, which is the
  reference's own gate stage (its operations are the same ones, the two changes of float format being the identity on
  extended reals) and is carried under that name; the two weights are the arguments themselves; the biases, scale and
  shift are the arguments given a leading axis of extent one.
-/
import proofs.«168423_j91130616087328_2_alg».proof.Proof.Gen.KernelIdeal.Frame
import proofs.«168423_j91130616087328_2_alg».proof.Proof.Gen.ReferenceIdeal.Read
import Idealize.ShloMosaic.Lib.StableHlo.Run
import Idealize.ShloMosaic.Lib.ValueIdx
import Idealize.ShloMosaic.Lib.ValueLayout

noncomputable section

namespace Cert.Gcn.Entry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The first window's array is the reshaped input, the reference's first stage. -/
theorem input_eq : (V m c main_v0 : S512x16x2048.Idx → EReal)
    = Cert.ReferenceIdeal.Read.val_main_v0 (F := Ideal) (m ((c.tc : Thread nD τ).loc main_arg0)) := by
  show StableHlo.after hostOps0 (fun b => m (c, b)) (Proc.devRef .tc main_v0) = _
  after_results
  rfl

/-- The second window's array is the gate, the reference's gate stage of the same three arguments. -/
theorem gate_eq : (V m c main_v15 : S512x2048.Idx → EReal)
    = Cert.ReferenceIdeal.Read.val_main_v13 (F := Ideal) (m ((c.tc : Thread nD τ).loc main_arg0))
        (m ((c.tc : Thread nD τ).loc main_arg1)) (m ((c.tc : Thread nD τ).loc main_arg2)) := by
  show StableHlo.after hostOps0 (fun b => m (c, b)) (Proc.devRef .tc main_v15) = _
  after_results
  rfl

/-- The two weights are the arguments: a change of float format is the identity. -/
theorem weight1_eq : (V m c main_v16 : S2048x2048.Idx → EReal) = m ((c.tc : Thread nD τ).loc main_arg3) := by
  show StableHlo.after hostOps0 (fun b => m (c, b)) (Proc.devRef .tc main_v16) = _
  after_results
  rfl
theorem weight2_eq : (V m c main_v17 : S2048x2048.Idx → EReal) = m ((c.tc : Thread nD τ).loc main_arg7) := by
  show StableHlo.after hostOps0 (fun b => m (c, b)) (Proc.devRef .tc main_v17) = _
  after_results
  rfl

/-- The biases, the scale and the shift are the arguments as one row. -/
theorem bias1_apply (k : Fin 2048) :
    (V m c main_v18 : S1x2048.Idx → EReal) (ix2 (0 : Fin 1) k) = m ((c.tc : Thread nD τ).loc main_arg4) (ix1 k) := by
  have e : (V m c main_v18 : S1x2048.Idx → EReal)
      = shapeCast S1x2048 (m ((c.tc : Thread nD τ).loc main_arg4)) Facts₀.shapeCasts_S2048_S1x2048 := by
    show StableHlo.after hostOps0 (fun b => m (c, b)) (Proc.devRef .tc main_v18) = _
    after_results
    rfl
  rw [e]
  exact shapeCast_a_1a_apply _ _ (0 : Fin 1) k
theorem scale_apply (k : Fin 2048) :
    (V m c main_v19 : S1x2048.Idx → EReal) (ix2 (0 : Fin 1) k) = m ((c.tc : Thread nD τ).loc main_arg5) (ix1 k) := by
  have e : (V m c main_v19 : S1x2048.Idx → EReal)
      = shapeCast S1x2048 (m ((c.tc : Thread nD τ).loc main_arg5)) Facts₀.shapeCasts_S2048_S1x2048 := by
    show StableHlo.after hostOps0 (fun b => m (c, b)) (Proc.devRef .tc main_v19) = _
    after_results
    rfl
  rw [e]
  exact shapeCast_a_1a_apply _ _ (0 : Fin 1) k
theorem shift_apply (k : Fin 2048) :
    (V m c main_v20 : S1x2048.Idx → EReal) (ix2 (0 : Fin 1) k) = m ((c.tc : Thread nD τ).loc main_arg6) (ix1 k) := by
  have e : (V m c main_v20 : S1x2048.Idx → EReal)
      = shapeCast S1x2048 (m ((c.tc : Thread nD τ).loc main_arg6)) Facts₀.shapeCasts_S2048_S1x2048 := by
    show StableHlo.after hostOps0 (fun b => m (c, b)) (Proc.devRef .tc main_v20) = _
    after_results
    rfl
  rw [e]
  exact shapeCast_a_1a_apply _ _ (0 : Fin 1) k
theorem bias2_apply (k : Fin 2048) :
    (V m c main_v21 : S1x2048.Idx → EReal) (ix2 (0 : Fin 1) k) = m ((c.tc : Thread nD τ).loc main_arg8) (ix1 k) := by
  have e : (V m c main_v21 : S1x2048.Idx → EReal)
      = shapeCast S1x2048 (m ((c.tc : Thread nD τ).loc main_arg8)) Facts₀.shapeCasts_S2048_S1x2048 := by
    show StableHlo.after hostOps0 (fun b => m (c, b)) (Proc.devRef .tc main_v21) = _
    after_results
    rfl
  rw [e]
  exact shapeCast_a_1a_apply _ _ (0 : Fin 1) k

end Cert.Gcn.Entry

end
-- ==== Proof.BlocksToArray.lean ====
/-
  From blocks to the array. Grid point `t` of 32 works on frames `16 t … 16 t + 15`: its input block and its row
  block of gates are those frames', the other windows are whole arrays, and what it writes back is the frame map of
  each of its frames — block `t` of the array of all frames' outputs. Every frame `n` lies in block `n / 16`, so the
  blocks cover the output array, which therefore ends holding that array; the reshape after the region gives the result.
-/
import proofs.«168423_j91130616087328_2_alg».proof.Proof.Gen.KernelIdeal.Frame
import proofs.«168423_j91130616087328_2_alg».proof.Proof.BlockPayload
import proofs.«168423_j91130616087328_2_alg».proof.Proof.HostSide
import proofs.«168423_j91130616087328_2_alg».proof.Proof.WholeArray
import Idealize.ShloMosaic.Lib.Pipeline.Value
import Idealize.ShloMosaic.Lib.StableHlo.Run

set_option maxRecDepth 16384

noncomputable section

namespace Cert.Gcn.Blocks

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg) (c : Dev nD)

/-- The array of all frames' outputs, of the arguments as launched. -/
abbrev outK : S512x16x2048.Idx → EReal :=
  Cert.Gcn.outArray (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input, the gates and the output move with the grid coordinate along
    their first axis; every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- Frame `a` of grid point `t`'s block, as a frame of the whole array. -/
abbrev frameOf (t : Fin cfg0.N) (a : Fin 16) : Fin 512 :=
  ⟨16 * t.val + a.val, by have h : t.val < 32 := lt_of_lt_of_eq t.isLt N_0; omega⟩

/-! ## Each window's block at a point, read at coordinates -/

theorem read0 (t : Fin cfg0.N) (a q : Fin 16) (k : Fin 2048) :
    iblk m c 0 t (ix3 a q k)
      = Cert.ReferenceIdeal.Read.val_main_v0 (F := Ideal) (m ((c.tc : Thread nD τ).loc main_arg0)) (ix3 (frameOf t a) q k) := by
  show V m c main_v0 (((cfg0.win 0).blk t).view.emb (ix3 a q k)) = _
  rw [Entry.input_eq]
  obtain ⟨e0, e1, e2, -⟩ := idx_facts t
  refine congrArg (Cert.ReferenceIdeal.Read.val_main_v0 (F := Ideal) (m ((c.tc : Thread nD τ).loc main_arg0))) (funext fun ax => Fin.ext ?_)
  match ax with
  | ⟨0, _⟩ => show win0_0.index t (0 : Fin 3) * 16 + 1 * a.val = 16 * t.val + a.val; omega
  | ⟨1, _⟩ => show win0_0.index t (1 : Fin 3) * 16 + 1 * q.val = q.val; omega
  | ⟨2, _⟩ => show win0_0.index t (2 : Fin 3) * 2048 + 1 * k.val = k.val; omega

theorem read1 (t : Fin cfg0.N) (a : Fin 16) (k : Fin 2048) :
    iblk m c 1 t (ix2 a k)
      = Cert.ReferenceIdeal.Read.val_main_v13 (F := Ideal) (m ((c.tc : Thread nD τ).loc main_arg0))
          (m ((c.tc : Thread nD τ).loc main_arg1)) (m ((c.tc : Thread nD τ).loc main_arg2)) (ix2 (frameOf t a) k) := by
  show V m c main_v15 (((cfg0.win 1).blk t).view.emb (ix2 a k)) = _
  rw [Entry.gate_eq]
  obtain ⟨-, -, -, e0, e1, -⟩ := idx_facts t
  refine congrArg (Cert.ReferenceIdeal.Read.val_main_v13 (F := Ideal) (m ((c.tc : Thread nD τ).loc main_arg0))
    (m ((c.tc : Thread nD τ).loc main_arg1)) (m ((c.tc : Thread nD τ).loc main_arg2))) (funext fun ax => Fin.ext ?_)
  match ax with
  | ⟨0, _⟩ => show win0_1.index t (0 : Fin 2) * 16 + 1 * a.val = 16 * t.val + a.val; omega
  | ⟨1, _⟩ => show win0_1.index t (1 : Fin 2) * 2048 + 1 * k.val = k.val; omega

theorem read2 (t : Fin cfg0.N) (d k : Fin 2048) :
    iblk m c 2 t (ix2 d k) = m ((c.tc : Thread nD τ).loc main_arg3) (ix2 d k) := by
  show V m c main_v16 (((cfg0.win 2).blk t).view.emb (ix2 d k)) = _
  rw [Entry.weight1_eq]
  obtain ⟨-, -, -, -, -, e0, e1, -⟩ := idx_facts t
  refine congrArg (m ((c.tc : Thread nD τ).loc main_arg3)) (funext fun ax => Fin.ext ?_)
  match ax with
  | ⟨0, _⟩ => show win0_2.index t (0 : Fin 2) * 2048 + 1 * d.val = d.val; omega
  | ⟨1, _⟩ => show win0_2.index t (1 : Fin 2) * 2048 + 1 * k.val = k.val; omega

theorem read6 (t : Fin cfg0.N) (d k : Fin 2048) :
    iblk m c 6 t (ix2 d k) = m ((c.tc : Thread nD τ).loc main_arg7) (ix2 d k) := by
  show V m c main_v17 (((cfg0.win 6).blk t).view.emb (ix2 d k)) = _
  rw [Entry.weight2_eq]
  obtain ⟨-, -, -, -, -, -, -, -, -, -, -, -, -, e0, e1, -⟩ := idx_facts t
  refine congrArg (m ((c.tc : Thread nD τ).loc main_arg7)) (funext fun ax => Fin.ext ?_)
  match ax with
  | ⟨0, _⟩ => show win0_6.index t (0 : Fin 2) * 2048 + 1 * d.val = d.val; omega
  | ⟨1, _⟩ => show win0_6.index t (1 : Fin 2) * 2048 + 1 * k.val = k.val; omega

theorem read3 (t : Fin cfg0.N) (k : Fin 2048) :
    iblk m c 3 t (ix2 (0 : Fin 1) k) = m ((c.tc : Thread nD τ).loc main_arg4) (ix1 k) := by
  show V m c main_v18 (((cfg0.win 3).blk t).view.emb (ix2 (0 : Fin 1) k)) = _
  obtain ⟨-, -, -, -, -, -, -, e0, e1, -⟩ := idx_facts t
  have e : ((cfg0.win 3).blk t).view.emb (ix2 (0 : Fin 1) k) = ix2 (0 : Fin 1) k := funext fun ax => Fin.ext (by
    match ax with
    | ⟨0, _⟩ => show win0_3.index t (0 : Fin 2) * 1 + 1 * 0 = 0; omega
    | ⟨1, _⟩ => show win0_3.index t (1 : Fin 2) * 2048 + 1 * k.val = k.val; omega)
  rw [e]
  exact Entry.bias1_apply m c k

theorem read4 (t : Fin cfg0.N) (k : Fin 2048) :
    iblk m c 4 t (ix2 (0 : Fin 1) k) = m ((c.tc : Thread nD τ).loc main_arg5) (ix1 k) := by
  show V m c main_v19 (((cfg0.win 4).blk t).view.emb (ix2 (0 : Fin 1) k)) = _
  obtain ⟨-, -, -, -, -, -, -, -, -, e0, e1, -⟩ := idx_facts t
  have e : ((cfg0.win 4).blk t).view.emb (ix2 (0 : Fin 1) k) = ix2 (0 : Fin 1) k := funext fun ax => Fin.ext (by
    match ax with
    | ⟨0, _⟩ => show win0_4.index t (0 : Fin 2) * 1 + 1 * 0 = 0; omega
    | ⟨1, _⟩ => show win0_4.index t (1 : Fin 2) * 2048 + 1 * k.val = k.val; omega)
  rw [e]
  exact Entry.scale_apply m c k

theorem read5 (t : Fin cfg0.N) (k : Fin 2048) :
    iblk m c 5 t (ix2 (0 : Fin 1) k) = m ((c.tc : Thread nD τ).loc main_arg6) (ix1 k) := by
  show V m c main_v20 (((cfg0.win 5).blk t).view.emb (ix2 (0 : Fin 1) k)) = _
  obtain ⟨-, -, -, -, -, -, -, -, -, -, -, e0, e1, -⟩ := idx_facts t
  have e : ((cfg0.win 5).blk t).view.emb (ix2 (0 : Fin 1) k) = ix2 (0 : Fin 1) k := funext fun ax => Fin.ext (by
    match ax with
    | ⟨0, _⟩ => show win0_5.index t (0 : Fin 2) * 1 + 1 * 0 = 0; omega
    | ⟨1, _⟩ => show win0_5.index t (1 : Fin 2) * 2048 + 1 * k.val = k.val; omega)
  rw [e]
  exact Entry.shift_apply m c k

theorem read7 (t : Fin cfg0.N) (k : Fin 2048) :
    iblk m c 7 t (ix2 (0 : Fin 1) k) = m ((c.tc : Thread nD τ).loc main_arg8) (ix1 k) := by
  show V m c main_v21 (((cfg0.win 7).blk t).view.emb (ix2 (0 : Fin 1) k)) = _
  obtain ⟨-, -, -, -, -, -, -, -, -, -, -, -, -, -, -, e0, e1, -⟩ := idx_facts t
  have e : ((cfg0.win 7).blk t).view.emb (ix2 (0 : Fin 1) k) = ix2 (0 : Fin 1) k := funext fun ax => Fin.ext (by
    match ax with
    | ⟨0, _⟩ => show win0_7.index t (0 : Fin 2) * 1 + 1 * 0 = 0; omega
    | ⟨1, _⟩ => show win0_7.index t (1 : Fin 2) * 2048 + 1 * k.val = k.val; omega)
  rw [e]
  exact Entry.bias2_apply m c k

/-- Where the output block's entry `(a, p, d)` lies in the array: frame `16 t + a`. -/
theorem emb8 (t : Fin cfg0.N) (a p : Fin 16) (d : Fin 2048) :
    ((cfg0.win 8).blk t).view.emb (ix3 a p d) = ix3 (frameOf t a) p d := by
  obtain ⟨-, -, -, -, -, -, -, -, -, -, -, -, -, -, -, -, -, e0, e1, e2⟩ := idx_facts t
  refine funext fun ax => Fin.ext ?_
  match ax with
  | ⟨0, _⟩ => show win0_8.index t (0 : Fin 3) * 16 + 1 * a.val = 16 * t.val + a.val; omega
  | ⟨1, _⟩ => show win0_8.index t (1 : Fin 3) * 16 + 1 * p.val = p.val; omega
  | ⟨2, _⟩ => show win0_8.index t (2 : Fin 3) * 2048 + 1 * d.val = d.val; omega

/-! ## What a point writes back, the cover, the array after the run -/

/-- WHAT POINT `t` WRITES BACK is block `t` of the array of all frames' outputs. -/
theorem flushed_eq (t : Fin cfg0.N) :
    (dats m 0 c).flushed 8 t = ((cfg0.win 8).blk t).view.read (Elt Ideal) (outK m c) := by
  show (cfg0.win 8).cut (grid0.coords t) ((dats m 0 c).after 8 t) = _
  rw [after0_8]
  unfold out0_8
  rw [View.canon_unit_zero hz3]
  simp only [View.ld_unit_zero (S := S16x16x2048) hz3, View.ld_unit_zero (S := S16x2048) hz2,
    View.ld_unit_zero (S := S2048x2048) hz2, View.ld_unit_zero (S := S1x2048) hz2]
  funext j
  obtain ⟨a, p, d, rfl⟩ : ∃ (a p : Fin 16) (d : Fin 2048), j = ix3 a p d := ⟨j 0, j 1, j 2, eq_ix3 j⟩
  refine (Block.payload_apply (iblk m c 0 t) (iblk m c 1 t) (iblk m c 2 t) (iblk m c 3 t) (iblk m c 4 t)
    (iblk m c 5 t) (iblk m c 6 t) (iblk m c 7 t) a p d).trans ?_
  simp only [read0, read1, read2, read3, read4, read5, read6, read7]
  show _ = outK m c (((cfg0.win 8).blk t).view.emb (ix3 a p d))
  rw [emb8]
  rfl

/-- An index of the array is in point `t`'s block iff each coordinate is in the block's range on its axis. -/
theorem mem_blk (t : Fin cfg0.N) (i : S512x16x2048.Idx) :
    i ∈ ((cfg0.win 8).blk t).view.set ↔ ∀ a : Fin 3, win0_8.index t a * S16x16x2048.size a ≤ (i a).val
      ∧ (i a).val < win0_8.index t a * S16x16x2048.size a + S16x16x2048.size a := by
  show i ∈ ((View.whole main_v22).slice (win0_8.rect t)).set ↔ _
  rw [View.set_slice_whole, Rect.mem_set_unit]
  exact Iff.rfl

/-- Every frame lies in some point's block: frame `n` in block `n / 16`. -/
theorem cover (i : S512x16x2048.Idx) :
    ∃ t : Fin cfg0.N, (cfg0.win 8).flush t = true ∧ i ∈ ((cfg0.win 8).blk t).view.set := by
  have hi0 : (i 0).val < 512 := (i 0).isLt
  have hi1 : (i 1).val < 16 := (i 1).isLt
  have hi2 : (i 2).val < 2048 := (i 2).isLt
  have ht : (i 0).val / 16 < cfg0.N := by rw [show cfg0.N = 32 from N_0]; omega
  obtain ⟨-, -, -, -, -, -, -, -, -, -, -, -, -, -, -, -, -, e0, e1, e2⟩ := idx_facts ⟨(i 0).val / 16, ht⟩
  have e0' : win0_8.index ⟨(i 0).val / 16, ht⟩ (0 : Fin 3) = (i 0).val / 16 := e0
  refine ⟨⟨(i 0).val / 16, ht⟩, flush0_8 _, ?_⟩
  rw [mem_blk]
  intro a
  match a with
  | ⟨0, _⟩ => show win0_8.index ⟨(i 0).val / 16, ht⟩ (0 : Fin 3) * 16 ≤ (i 0).val ∧ (i 0).val < win0_8.index ⟨(i 0).val / 16, ht⟩ (0 : Fin 3) * 16 + 16; omega
  | ⟨1, _⟩ => show win0_8.index ⟨(i 0).val / 16, ht⟩ (1 : Fin 3) * 16 ≤ (i 1).val ∧ (i 1).val < win0_8.index ⟨(i 0).val / 16, ht⟩ (1 : Fin 3) * 16 + 16; omega
  | ⟨2, _⟩ => show win0_8.index ⟨(i 0).val / 16, ht⟩ (2 : Fin 3) * 2048 ≤ (i 2).val ∧ (i 2).val < win0_8.index ⟨(i 0).val / 16, ht⟩ (2 : Fin 3) * 2048 + 2048; omega

/-- THE OUTPUT ARRAY after the run holds all frames' outputs. -/
theorem final : (dats m 0 c).arrAt 8 cfg0.N = outK m c :=
  (dats m 0 c).arrAt_eq_of_cover 8 (outK m c) (fun t _ => flushed_eq m c t) cover

end Cert.Gcn.Blocks

end
-- ==== Proof.KernelRun.lean ====
/-
  The kernel's run, read. After the region its output array holds all frames' outputs (BlocksToArray.lean); the one
  host operation after the region reshapes it to the input's four axes, and that is the result. The arguments end as
  launched: no window writes one back and no host operation writes one.
-/
import proofs.«168423_j91130616087328_2_alg».proof.Proof.BlocksToArray

set_option maxRecDepth 16384

noncomputable section

namespace Cert.Gcn.Run

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The kernel's result: all frames' outputs, reshaped to the input's four axes. -/
abbrev resultK (c : Dev nD) : S32x16x16x2048.Idx → EReal :=
  shapeCast S32x16x16x2048 (Blocks.outK m c) Facts₀.shapeCasts_S512x16x2048_S32x16x16x2048

/-- After the frame run the result buffer holds it: the reshape after the region, of the output array after the run. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v23) = resultK m c := by
  refine ((h c).2 main_v23 (Pipeline.mem_restRefs_of main_v23 (by decide) (by decide))).trans ?_
  unfold Pipeline.afterTail₀
  show StableHlo.after hostOps1 _ (Proc.devRef .tc main_v23) = _
  after_results
  rw [(Pipeline.withArrays_arr spec0 launch0.win.arr_inj c _ _ 8).trans (Blocks.final m c)]
  rfl

/-- THE KERNEL'S RUN: every weakly fair execution terminates with the result at all frames' outputs, reshaped, and the
    arguments as launched. -/
theorem run : θ_run defs (onTc (τ := τ) (main (F := Ideal))) ⟨m, fun _ => 0, ρ⟩ fun r => ∀ c : Dev nD,
      r.2.mem ((c.tc : Thread nD τ).loc main_v23) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨result_eq m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.Gcn.Run

end
-- ==== Proof.lean ====
/- The proof of `Cert.Claim`.
   Both programs compute, for each of the 512 frames (32 × 16) of 16 parts of 2048 channels, the same map of the frame:
   the frame is multiplied by a gate (a sigmoid of an affine image of the frame's mean over its parts), sent through an
   affine map on the channels, normalised over the 16 parts (mean, biased variance, reciprocal square root, scale and
   shift), clipped below at zero and sent through a second affine map; the frames' outputs are reshaped to the input's
   four axes. The reference does this on whole arrays. The kernel computes the gates on the host, then works on 16
   frames per grid point with the frames' parts laid out as 256 rows for the two products, and reshapes after the
   region. On the extended reals a change of float format is the identity, a product accumulated from zero is the
   plain sum, and each program's sums over the parts and over the channels range over the same index sets, so the two
   results are one function of the arguments, index by index (Proof/FrameMap.lean states the map on one frame,
   Proof/RefStages.lean and Proof/WholeArray.lean read the reference as it, Proof/BlockOps.lean and
   Proof/BlockPayload.lean the kernel's body, Proof/HostSide.lean what the region finds, Proof/BlocksToArray.lean and
   Proof/KernelRun.lean the output array and the result). No law used needs finiteness: the precondition is never
   opened. The ideal pass rewrote nothing, so `preserves` asks nothing. -/
import proofs.«168423_j91130616087328_2_alg».proof.Defs
import proofs.«168423_j91130616087328_2_alg».proof.Proof.Gen.Kernel
import proofs.«168423_j91130616087328_2_alg».proof.Proof.Gen.Kernel.Skeleton
import proofs.«168423_j91130616087328_2_alg».proof.Proof.Gen.Kernel.Launch
import proofs.«168423_j91130616087328_2_alg».proof.Proof.Gen.Kernel.Points
import proofs.«168423_j91130616087328_2_alg».proof.Proof.Gen.Kernel.Frame
import proofs.«168423_j91130616087328_2_alg».proof.Proof.Gen.KernelIdeal
import proofs.«168423_j91130616087328_2_alg».proof.Proof.Gen.KernelIdeal.Skeleton
import proofs.«168423_j91130616087328_2_alg».proof.Proof.Gen.KernelIdeal.Launch
import proofs.«168423_j91130616087328_2_alg».proof.Proof.Gen.KernelIdeal.Points
import proofs.«168423_j91130616087328_2_alg».proof.Proof.Gen.KernelIdeal.Frame
import proofs.«168423_j91130616087328_2_alg».proof.Proof.Gen.ReferenceIdeal
import proofs.«168423_j91130616087328_2_alg».proof.Proof.Gen.ReferenceIdeal.Run
import proofs.«168423_j91130616087328_2_alg».proof.Proof.Gen.ReferenceIdeal.Read
import proofs.«168423_j91130616087328_2_alg».proof.Proof.Gen.Pre_finite_inputs
import proofs.«168423_j91130616087328_2_alg».proof.Proof.WholeArray
import proofs.«168423_j91130616087328_2_alg».proof.Proof.KernelRun
import Idealize.ShloMosaic.Adequacy
import Idealize.ShloMosaic.Init

noncomputable section

namespace Cert.Proof

open Idealize.ShloMosaic Idealize.SL.Sem

/-- Each program runs and leaves its arguments as launched: the kernels by their generated frames, the reference by its
    generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing to show. -/
theorem preserves : Cert.preserves_Kernel_KernelIdeal := trivial

/-- From memories agreeing on the arguments both programs end with all frames' outputs, reshaped: the kernel by its
    run read block by block, the reference by its run read stage by stage. -/
theorem algebraic : Cert.algebraic_KernelIdeal_ReferenceIdeal := by
  intro m ρ m' ρ' _ hagree
  refine ⟨fun c => Cert.Gcn.Run.resultK m c, Cert.Gcn.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq]
  unfold Cert.ReferenceIdeal.Read.val_main_v50
  rw [Cert.Gcn.ref_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
